-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : FVec F S512x128 .f32) (main_arg2 : FVec F S128 .f32) (main_arg3 : FVec F S128x40 .f32) (main_arg4 : FVec F S40 .f32) (main_arg5 : IVec S1600000 32) (main_arg6 : IVec S1600000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_v13 main_v16
-- ==== Kernel.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S50000x40 : Shape := ⟨2, ![50000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 59
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x1, .f32⟩
  | .hbm, ⟨27, _⟩ => ⟨S50000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S50000x128, .f32⟩
  | .hbm, ⟨39, _⟩ => ⟨S1600000x1, .i32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x40, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x40, .f32⟩
  | .hbm, ⟨53, _⟩ => ⟨S_, .f32⟩
  | .hbm, ⟨54, _⟩ => ⟨S50000x40, .f32⟩
  | .hbm, ⟨55, _⟩ => ⟨S1600000x1, .i32⟩
  | .hbm, ⟨56, _⟩ => ⟨S50000x40, .f32⟩
  | .hbm, ⟨57, _⟩ => ⟨S1x40, .f32⟩
  | .hbm, ⟨58, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x40, .f32⟩
  | .local _ .vmem, ⟨17, _⟩ => ⟨S2000x1, .f32⟩
  | .local _ .vmem, ⟨18, _⟩ => ⟨S2000x1, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x1, .f32⟩
  | .local _ .vmem, ⟨24, _⟩ => ⟨S2000x1, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S50000_S1600000x1_S1600000_n_0_0_1_wf : ScatterDims.WF S50000 S1600000x1 S1600000 [] [0] [0] 1
  dot_S2000x512_S512x128_S2000x128_1_0_0_1_n_n_wf : DotDims.WF S2000x512 S512x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x40_S2000x40_1_0_0_1_n_n_wf : DotDims.WF S2000x128 S128x40 S2000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x128 : Shape := ⟨2, ![50000, 128]⟩
abbrev S50000x1 : Shape := ⟨2, ![50000, 1]⟩
abbrev S1600000x128 : Shape := ⟨2, ![1600000, 128]⟩
abbrev S1x128 : Shape := ⟨2, ![1, 128]⟩
abbrev S50000x40 : Shape := ⟨2, ![50000, 40]⟩
abbrev S1600000x40 : Shape := ⟨2, ![1600000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x128, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S50000x128, .f32⟩
  | .hbm, ⟨40, _⟩ => ⟨S1600000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x40, .f32⟩
  | .hbm, ⟨52, _⟩ => ⟨S50000x1, .f32⟩
  | .hbm, ⟨53, _⟩ => ⟨S50000x40, .f32⟩
  | .hbm, ⟨54, _⟩ => ⟨S50000x40, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x40, .f32⟩
  | .hbm, ⟨64, _⟩ => ⟨S_, .f32⟩
  | .hbm, ⟨65, _⟩ => ⟨S50000x40, .f32⟩
  | .hbm, ⟨66, _⟩ => ⟨S1600000x1, .i32⟩
  | .hbm, ⟨67, _⟩ => ⟨S50000x40, .f32⟩
  | .hbm, ⟨68, _⟩ => ⟨S50000x1, .f32⟩
  | .hbm, ⟨69, _⟩ => ⟨S50000x40, .f32⟩
  | .hbm, ⟨70, _⟩ => ⟨S50000x40, .f32⟩
  | .hbm, ⟨71, _⟩ => ⟨S1x40, .f32⟩
  | .hbm, ⟨72, _⟩ => ⟨S50000x40, .f32⟩
  | .hbm, ⟨73, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S1600000x1_S1600000_n_0_0_1_wf : ScatterDims.WF S50000 S1600000x1 S1600000 [] [0] [0] 1
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x40_S50000x40_1_0_0_1_n_n_wf : DotDims.WF S50000x128 S128x40 S50000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

class Facts : Prop extends Facts₀ where

variable [Facts]
-- ==== Proof.KRun.lean ====
/-
  The idealized kernel's run, with its result named.

  Every weakly fair execution of the program terminates without a fault, and at the end the result buffer holds
  what the last boundary's contents say it holds, the seven arguments what they held at launch.  The contents at
  each boundary are a fold through the program: host operations applied to the previous contents, and at a
  region's exit its arrays at what the write-backs leave.
-/
import proofs.«174996_j73890617360513_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments as launched. -/
theorem run : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v40 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.KRun

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Bodies.lean ====
/-
  The four kernel bodies read at an entry, over the extended reals.

  Each body stores one block.  For the two products: entry (p, q) of the block is the row-by-column sum
  Σ_k x(p, k) · w(k, q) (the change of float format before the product is the identity here, and the product is
  taken into a zero accumulator) times the one entry of row p of the scaling column.  For the two affine bodies:
  entry (p, q) is a(p, q) · n(p, 0) + b(0, q), and the first of them takes the maximum of that with zero.
-/
import proofs.«174996_j73890617360513_1_alg».proof.Proof.Gen.KernelIdeal.Skeleton
import proofs.«174996_j73890617360513_1_alg».proof.Proof.LibMatmulPlain
import proofs.«174996_j73890617360513_1_alg».proof.Proof.LibKeepdims
import Idealize.ShloMosaic.Lib.Pipeline.Value
import Idealize.ShloMosaic.Lib.ValueLayout
import Idealize.ShloMosaic.Lib.ValueIdx

noncomputable section

open scoped BigOperators

namespace Cert.KernelIdeal.Bodies

open Idealize.ShloMosaic Idealize.ShloMosaic.ValueIdx Cert.KernelIdeal Cert.KernelIdeal.Gen

/-- The first product's block at (p, q): the row-by-column sum over 512 terms, times the column's entry of row p. -/
theorem pay0_apply (x0 : Vec Ideal S2000x512 .f32) (x1 : Vec Ideal S512x128 .f32) (x2 : Vec Ideal S2000x1 .f32)
    (p : Fin 2000) (q : Fin 128) :
    k0_pay1 x0 x1 x2 (ix2 p q) = (∑ k : Fin 512, x0 (ix2 p k) * x1 (ix2 k q)) * x2 (ix2 p (0 : Fin 1)) := by
  unfold k0_pay1
  rw [mulf_apply, shapeCast_self]
  congr 1
  · exact MatmulPlain.matmul_zero_apply (M := 2000) (K := 512) (N := 128) none _ _ (ix2 p q)
  · exact Keepdims.broadcastTo_a1_ab_apply _ _ p q

/-- The second product's block at (p, q): the row-by-column sum over 128 terms, times the column's entry of row p. -/
theorem pay2_apply (x0 : Vec Ideal S2000x128 .f32) (x1 : Vec Ideal S128x40 .f32) (x2 : Vec Ideal S2000x1 .f32)
    (p : Fin 2000) (q : Fin 40) :
    k2_pay1 x0 x1 x2 (ix2 p q) = (∑ k : Fin 128, x0 (ix2 p k) * x1 (ix2 k q)) * x2 (ix2 p (0 : Fin 1)) := by
  unfold k2_pay1
  rw [mulf_apply, shapeCast_self, shapeCast_self]
  congr 1
  · exact MatmulPlain.matmul_zero_apply (M := 2000) (K := 128) (N := 40) none _ _ (ix2 p q)
  · exact Keepdims.broadcastTo_a1_ab_apply _ _ p q

/-- The first affine block at (p, q): max (a(p, q) · n(p, 0) + b(0, q)) 0. -/
theorem pay1_apply (x0 : Vec Ideal S2000x128 .f32) (x1 : Vec Ideal S2000x1 .f32) (x2 : Vec Ideal S1x128 .f32)
    (p : Fin 2000) (q : Fin 128) :
    k1_pay1 x0 x1 x2 (ix2 p q)
      = max (x0 (ix2 p q) * x1 (ix2 p (0 : Fin 1)) + x2 (ix2 (0 : Fin 1) q)) (Ideal.ofBits .f32 0x00000000#32) := by
  unfold k1_pay1
  rw [maximumf_apply, addf_apply, mulf_apply, shapeCast_self, shapeCast_self, shapeCast_self]
  congr 1
  congr 1
  · congr 1
    exact Keepdims.broadcastTo_a1_ab_apply _ _ p q
  · exact broadcastTo_1b_ab_apply _ _ p q

/-- The second affine block at (p, q): a(p, q) · n(p, 0) + b(0, q). -/
theorem pay3_apply (x0 : Vec Ideal S2000x40 .f32) (x1 : Vec Ideal S2000x1 .f32) (x2 : Vec Ideal S1x40 .f32)
    (p : Fin 2000) (q : Fin 40) :
    k3_pay1 x0 x1 x2 (ix2 p q) = x0 (ix2 p q) * x1 (ix2 p (0 : Fin 1)) + x2 (ix2 (0 : Fin 1) q) := by
  unfold k3_pay1
  rw [addf_apply, mulf_apply, shapeCast_self, shapeCast_self, shapeCast_self]
  congr 1
  · congr 1
    exact Keepdims.broadcastTo_a1_ab_apply _ _ p q
  · exact broadcastTo_1b_ab_apply _ _ p q

end Cert.KernelIdeal.Bodies

end
-- ==== Proof.Spec.lean ====
/-
  The whole-array functions the four kernel regions compute, over the extended reals, for arbitrary extents.

  matScale a w n : entry (r, q) is the row-by-column sum Σ_k a(r, k) · w(k, q) times n(r, 0), the entry of the
  scaling column in row r.  affine a n b : entry (r, q) is a(r, q) · n(r, 0) + b(0, q).  affineRelu is the maximum
  of that with zero.  Row r of an array tiled in blocks of 2000 rows is row p of block t when r = 2000 t + p.
-/
import Idealize.ShloMosaic.PureOps.Ideal
import Idealize.ShloMosaic.Lib.ValueIdx

noncomputable section

open scoped BigOperators

namespace Cert.Spec

open Idealize.ShloMosaic Idealize.ShloMosaic.ValueIdx

/-- A product of an [M, K] by a [K, N] matrix whose row r is then scaled by the entry (r, 0) of a column. -/
def matScale {M K N : Nat} (a : FVec Ideal ⟨2, ![M, K]⟩ .f32) (w : FVec Ideal ⟨2, ![K, N]⟩ .f32)
    (n : FVec Ideal ⟨2, ![M, 1]⟩ .f32) : FVec Ideal ⟨2, ![M, N]⟩ .f32 :=
  fun i => (∑ k : Fin K, a (ix2 (i 0) k) * w (ix2 k (i 1))) * n (ix2 (i 0) (0 : Fin 1))

/-- Row r scaled by the entry (r, 0) of a column, then a row vector added to every row. -/
def affine {M N : Nat} (a : FVec Ideal ⟨2, ![M, N]⟩ .f32) (n : FVec Ideal ⟨2, ![M, 1]⟩ .f32)
    (b : FVec Ideal ⟨2, ![1, N]⟩ .f32) : FVec Ideal ⟨2, ![M, N]⟩ .f32 :=
  fun i => a i * n (ix2 (i 0) (0 : Fin 1)) + b (ix2 (0 : Fin 1) (i 1))

/-- The same, then the maximum with zero. -/
def affineRelu {M N : Nat} (a : FVec Ideal ⟨2, ![M, N]⟩ .f32) (n : FVec Ideal ⟨2, ![M, 1]⟩ .f32)
    (b : FVec Ideal ⟨2, ![1, N]⟩ .f32) : FVec Ideal ⟨2, ![M, N]⟩ .f32 :=
  fun i => max (affine a n b i) (Ideal.ofBits .f32 0x00000000#32)

/-- Row p of the t-th block of 2000 rows, among 25 blocks. -/
def row (t : Nat) (ht : t < 25) (p : Fin 2000) : Fin 50000 := ⟨t * 2000 + p.val, by have := p.isLt; omega⟩

theorem row_val (t : Nat) (ht : t < 25) (p : Fin 2000) : (row t ht p).val = t * 2000 + p.val := rfl

end Cert.Spec

end
-- ==== Proof.Region0.lean ====
/-
  The first product region: the array it leaves.

  The grid has 25 points; point t reads rows 2000 t … 2000 t + 1999 of the left matrix and of the scaling column,
  the whole right matrix, and writes the same rows of the result.  So what point t writes back is block t of
  matScale (left, right, column), and the 25 blocks cover the result: the result is matScale of the three arrays
  as the region finds them.
-/
import proofs.«174996_j73890617360513_1_alg».proof.Proof.Gen.KernelIdeal.Frame
import proofs.«174996_j73890617360513_1_alg».proof.Proof.Bodies
import proofs.«174996_j73890617360513_1_alg».proof.Proof.Spec
import Idealize.ShloMosaic.Lib.Pipeline.Value

set_option maxRecDepth 16384

noncomputable section

open scoped BigOperators

namespace Cert.KernelIdeal.Region0

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows are at block t, the right matrix at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 25 :=
  (by decide +kernel : ∀ t : Fin grid0.N, _)

/-- What point t writes back is block t of matScale of the arrays the region finds. -/
theorem flushed_eq (c : Dev nD) (t : Fin cfg0.N) :
    (dat0 V c).flushed 3 t = ((cfg0.win 3).blk t).view.read (Elt Ideal)
      (Spec.matScale (V c main_arg0) (V c main_arg1) (V c main_v13)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x128) hz,
    View.ld_unit_zero (S := S2000x1) hz]
  obtain ⟨e00, e01, e10, e11, e20, e21, e30, e31, ht⟩ := idx_facts t
  funext j
  obtain ⟨p, q, rfl⟩ : ∃ (p : Fin 2000) (q : Fin 128), j = ix2 p q := ⟨j 0, j 1, eq_ix2 j⟩
  refine (Bodies.pay0_apply (iblk0 V c 0 t) (iblk0 V c 1 t) (iblk0 V c 2 t) p q).trans ?_
  have h0 : ∀ k : Fin 512, iblk0 V c 0 t (ix2 p k) = V c main_arg0 (ix2 (Spec.row t.val ht p) k) := by
    intro k
    show V c main_arg0 (((cfg0.win 0).blk t).view.emb (ix2 p k)) = _
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have h1 : ∀ k : Fin 512, iblk0 V c 1 t (ix2 k q) = V c main_arg1 (ix2 k q) := by
    intro k
    show V c main_arg1 (((cfg0.win 1).blk t).view.emb (ix2 k q)) = _
    refine congrArg _ ?_
    funext a; apply Fin.ext
    match a with
    | ⟨0, _⟩ => show win0_1.index t (0 : Fin 2) * 512 + 1 * k.val = k.val; omega
    | ⟨1, _⟩ => show win0_1.index t (1 : Fin 2) * 128 + 1 * q.val = q.val; omega
  have h2 : iblk0 V c 2 t (ix2 p (0 : Fin 1)) = V c main_v13 (ix2 (Spec.row t.val ht p) (0 : Fin 1)) := by
    show V c main_v13 (((cfg0.win 2).blk t).view.emb (ix2 p (0 : Fin 1))) = _
    refine congrArg _ ?_
    funext a; apply Fin.ext
    match a with
    | ⟨0, _⟩ => show win0_2.index t (0 : Fin 2) * 2000 + 1 * p.val = t.val * 2000 + p.val; omega
    | ⟨1, _⟩ => show win0_2.index t (1 : Fin 2) * 1 + 1 * 0 = 0; omega
  have h3 : ((cfg0.win 3).blk t).view.emb (ix2 p q) = ix2 (Spec.row t.val ht p) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show _ = Spec.matScale (V c main_arg0) (V c main_arg1) (V c main_v13) (((cfg0.win 3).blk t).view.emb (ix2 p q))
  rw [h3, h2, Finset.sum_congr rfl (fun k _ => by rw [h0 k, h1 k])]
  rfl

/-- An index of the result is in point t's block iff its row is among the block's 2000 rows. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v15).slice (win0_3.rect t)).set ↔ _
  rw [View.set_slice_whole, Rect.mem_set_unit]
  exact Iff.rfl

/-- Every index of the result is in the block of the point its row divided by 2000 names. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e30, e31, -⟩ := idx_facts t
  have tv : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE ARRAY the region leaves: matScale of the arrays it finds. -/
theorem final (c : Dev nD) :
    (dat0 V c).arrAt 3 cfg0.N = Spec.matScale (V c main_arg0) (V c main_arg1) (V c main_v13) :=
  (dat0 V c).arrAt_eq_of_cover 3 _ (fun t _ => flushed_eq V c t) cover

end Cert.KernelIdeal.Region0

end
-- ==== Proof.Region1.lean ====
/-
  The first affine region: the array it leaves.

  The grid has 25 points; point t reads rows 2000 t … 2000 t + 1999 of the summed messages and of the scaling
  column, the one-row bias, and writes the same rows of the result: entry (r, q) is
  a(r, q) · n(r, 0) + b(0, q), and its maximum with zero is taken.  The 25 blocks cover the result.
-/
import proofs.«174996_j73890617360513_1_alg».proof.Proof.Gen.KernelIdeal.Frame
import proofs.«174996_j73890617360513_1_alg».proof.Proof.Bodies
import proofs.«174996_j73890617360513_1_alg».proof.Proof.Spec
import Idealize.ShloMosaic.Lib.Pipeline.Value

set_option maxRecDepth 16384

noncomputable section

open scoped BigOperators

namespace Cert.KernelIdeal.Region1

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows are at block t, the bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- What point t writes back is block t of the affine function of the arrays the region finds. -/
theorem flushed_eq (c : Dev nD) (t : Fin cfg1.N) :
    (dat1 V c).flushed 3 t = ((cfg1.win 3).blk t).view.read (Elt Ideal)
      (Spec.affineRelu (V c main_v25) (V c main_v14) (V c main_v26)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz,
    View.ld_unit_zero (S := S1x128) hz]
  obtain ⟨e00, e01, e10, e11, e20, e21, e30, e31, ht⟩ := idx_facts t
  funext j
  obtain ⟨p, q, rfl⟩ : ∃ (p : Fin 2000) (q : Fin 128), j = ix2 p q := ⟨j 0, j 1, eq_ix2 j⟩
  refine (Bodies.pay1_apply (iblk1 V c 0 t) (iblk1 V c 1 t) (iblk1 V c 2 t) p q).trans ?_
  have h0 : iblk1 V c 0 t (ix2 p q) = V c main_v25 (ix2 (Spec.row t.val ht p) q) := by
    show V c main_v25 (((cfg1.win 0).blk t).view.emb (ix2 p q)) = _
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * q.val = q.val; omega
  have h1 : iblk1 V c 1 t (ix2 p (0 : Fin 1)) = V c main_v14 (ix2 (Spec.row t.val ht p) (0 : Fin 1)) := by
    show V c main_v14 (((cfg1.win 1).blk t).view.emb (ix2 p (0 : Fin 1))) = _
    refine congrArg _ ?_
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : iblk1 V c 2 t (ix2 (0 : Fin 1) q) = V c main_v26 (ix2 (0 : Fin 1) q) := by
    show V c main_v26 (((cfg1.win 2).blk t).view.emb (ix2 (0 : Fin 1) q)) = _
    refine congrArg _ ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((cfg1.win 3).blk t).view.emb (ix2 p q) = ix2 (Spec.row t.val ht p) q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  show _ = Spec.affineRelu (V c main_v25) (V c main_v14) (V c main_v26) (((cfg1.win 3).blk t).view.emb (ix2 p q))
  rw [h3, h2, h1, h0]
  rfl

/-- An index of the result is in point t's block iff its row is among the block's 2000 rows. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v27).slice (win1_3.rect t)).set ↔ _
  rw [View.set_slice_whole, Rect.mem_set_unit]
  exact Iff.rfl

/-- Every index of the result is in the block of the point its row divided by 2000 names. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, e30, e31, -⟩ := idx_facts t
  have tv : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE ARRAY the region leaves: the affine function of the arrays it finds. -/
theorem final (c : Dev nD) :
    (dat1 V c).arrAt 3 cfg1.N = Spec.affineRelu (V c main_v25) (V c main_v14) (V c main_v26) :=
  (dat1 V c).arrAt_eq_of_cover 3 _ (fun t _ => flushed_eq V c t) cover

end Cert.KernelIdeal.Region1

end
-- ==== Proof.Region2.lean ====
/-
  The second product region: the array it leaves.

  The grid has 25 points; point t reads rows 2000 t … 2000 t + 1999 of the left matrix and of the scaling column,
  the whole right matrix, and writes the same rows of the result.  So what point t writes back is block t of
  matScale (left, right, column), and the 25 blocks cover the result: the result is matScale of the three arrays
  as the region finds them.
-/
import proofs.«174996_j73890617360513_1_alg».proof.Proof.Gen.KernelIdeal.Frame
import proofs.«174996_j73890617360513_1_alg».proof.Proof.Bodies
import proofs.«174996_j73890617360513_1_alg».proof.Proof.Spec
import Idealize.ShloMosaic.Lib.Pipeline.Value

set_option maxRecDepth 16384

noncomputable section

open scoped BigOperators

namespace Cert.KernelIdeal.Region2

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows are at block t, the right matrix at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 25 :=
  (by decide +kernel : ∀ t : Fin grid2.N, _)

/-- What point t writes back is block t of matScale of the arrays the region finds. -/
theorem flushed_eq (c : Dev nD) (t : Fin cfg2.N) :
    (dat2 V c).flushed 3 t = ((cfg2.win 3).blk t).view.read (Elt Ideal)
      (Spec.matScale (V c main_v27) (V c main_arg3) (V c main_v13)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x40) hz,
    View.ld_unit_zero (S := S2000x1) hz]
  obtain ⟨e00, e01, e10, e11, e20, e21, e30, e31, ht⟩ := idx_facts t
  funext j
  obtain ⟨p, q, rfl⟩ : ∃ (p : Fin 2000) (q : Fin 40), j = ix2 p q := ⟨j 0, j 1, eq_ix2 j⟩
  refine (Bodies.pay2_apply (iblk2 V c 0 t) (iblk2 V c 1 t) (iblk2 V c 2 t) p q).trans ?_
  have h0 : ∀ k : Fin 128, iblk2 V c 0 t (ix2 p k) = V c main_v27 (ix2 (Spec.row t.val ht p) k) := by
    intro k
    show V c main_v27 (((cfg2.win 0).blk t).view.emb (ix2 p k)) = _
    refine congrArg _ ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  have h1 : ∀ k : Fin 128, iblk2 V c 1 t (ix2 k q) = V c main_arg3 (ix2 k q) := by
    intro k
    show V c main_arg3 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 40 + 1 * q.val = q.val; omega
  have h2 : iblk2 V c 2 t (ix2 p (0 : Fin 1)) = V c main_v13 (ix2 (Spec.row t.val ht p) (0 : Fin 1)) := by
    show V c main_v13 (((cfg2.win 2).blk t).view.emb (ix2 p (0 : Fin 1))) = _
    refine congrArg _ ?_
    funext a; apply Fin.ext
    match a with
    | ⟨0, _⟩ => show win2_2.index t (0 : Fin 2) * 2000 + 1 * p.val = t.val * 2000 + p.val; omega
    | ⟨1, _⟩ => show win2_2.index t (1 : Fin 2) * 1 + 1 * 0 = 0; omega
  have h3 : ((cfg2.win 3).blk t).view.emb (ix2 p q) = ix2 (Spec.row t.val ht p) q := by
    funext a; apply Fin.ext
    match a with
    | ⟨0, _⟩ => show win2_3.index t (0 : Fin 2) * 2000 + 1 * p.val = t.val * 2000 + p.val; omega
    | ⟨1, _⟩ => show win2_3.index t (1 : Fin 2) * 40 + 1 * q.val = q.val; omega
  show _ = Spec.matScale (V c main_v27) (V c main_arg3) (V c main_v13) (((cfg2.win 3).blk t).view.emb (ix2 p q))
  rw [h3, h2, Finset.sum_congr rfl (fun k _ => by rw [h0 k, h1 k])]
  rfl

/-- An index of the result is in point t's block iff its row is among the block's 2000 rows. -/
theorem mem_blk (t : Fin cfg2.N) (i : S50000x40.Idx) :
    i ∈ ((cfg2.win 3).blk t).view.set ↔ ∀ a : Fin 2, win2_3.index t a * S2000x40.size a ≤ (i a).val
      ∧ (i a).val < win2_3.index t a * S2000x40.size a + S2000x40.size a := by
  show i ∈ ((View.whole main_v28).slice (win2_3.rect t)).set ↔ _
  rw [View.set_slice_whole, Rect.mem_set_unit]
  exact Iff.rfl

/-- Every index of the result is in the block of the point its row divided by 2000 names. -/
theorem cover (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 25 := N_2
  let t : Fin cfg2.N := ⟨(i 0).val / 2000, by rw [hN]; omega⟩
  obtain ⟨-, -, -, -, -, -, e30, e31, -⟩ := idx_facts t
  have tv : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 40 ≤ (i 1).val ∧ (i 1).val < win2_3.index t (1 : Fin 2) * 40 + 40; omega

/-- THE ARRAY the region leaves: matScale of the arrays it finds. -/
theorem final (c : Dev nD) :
    (dat2 V c).arrAt 3 cfg2.N = Spec.matScale (V c main_v27) (V c main_arg3) (V c main_v13) :=
  (dat2 V c).arrAt_eq_of_cover 3 _ (fun t _ => flushed_eq V c t) cover

end Cert.KernelIdeal.Region2

end
-- ==== Proof.Region3.lean ====
/-
  The second affine region: the array it leaves.

  The grid has 25 points; point t reads rows 2000 t … 2000 t + 1999 of the summed messages and of the scaling
  column, the one-row bias, and writes the same rows of the result: entry (r, q) is
  a(r, q) · n(r, 0) + b(0, q).  The 25 blocks cover the result.
-/
import proofs.«174996_j73890617360513_1_alg».proof.Proof.Gen.KernelIdeal.Frame
import proofs.«174996_j73890617360513_1_alg».proof.Proof.Bodies
import proofs.«174996_j73890617360513_1_alg».proof.Proof.Spec
import Idealize.ShloMosaic.Lib.Pipeline.Value

set_option maxRecDepth 16384

noncomputable section

open scoped BigOperators

namespace Cert.KernelIdeal.Region3

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows are at block t, the bias at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 25 :=
  (by decide +kernel : ∀ t : Fin grid3.N, _)

/-- What point t writes back is block t of the affine function of the arrays the region finds. -/
theorem flushed_eq (c : Dev nD) (t : Fin cfg3.N) :
    (dat3 V c).flushed 3 t = ((cfg3.win 3).blk t).view.read (Elt Ideal)
      (Spec.affine (V c main_v38) (V c main_v14) (V c main_v39)) := by
  show (cfg3.win 3).cut (grid3.coords t) ((dat3 V c).after 3 t) = _
  rw [after3_3]
  unfold out3_3
  rw [View.canon_unit_zero hz]
  simp only [View.ld_unit_zero (S := S2000x40) hz, View.ld_unit_zero (S := S2000x1) hz,
    View.ld_unit_zero (S := S1x40) hz]
  obtain ⟨e00, e01, e10, e11, e20, e21, e30, e31, ht⟩ := idx_facts t
  funext j
  obtain ⟨p, q, rfl⟩ : ∃ (p : Fin 2000) (q : Fin 40), j = ix2 p q := ⟨j 0, j 1, eq_ix2 j⟩
  refine (Bodies.pay3_apply (iblk3 V c 0 t) (iblk3 V c 1 t) (iblk3 V c 2 t) p q).trans ?_
  have h0 : iblk3 V c 0 t (ix2 p q) = V c main_v38 (ix2 (Spec.row t.val ht p) q) := by
    show V c main_v38 (((cfg3.win 0).blk t).view.emb (ix2 p q)) = _
    refine congrArg _ ?_
    funext a; apply Fin.ext
    match a with
    | ⟨0, _⟩ => show win3_0.index t (0 : Fin 2) * 2000 + 1 * p.val = t.val * 2000 + p.val; omega
    | ⟨1, _⟩ => show win3_0.index t (1 : Fin 2) * 40 + 1 * q.val = q.val; omega
  have h1 : iblk3 V c 1 t (ix2 p (0 : Fin 1)) = V c main_v14 (ix2 (Spec.row t.val ht p) (0 : Fin 1)) := by
    show V c main_v14 (((cfg3.win 1).blk t).view.emb (ix2 p (0 : Fin 1))) = _
    refine congrArg _ ?_
    funext a; apply Fin.ext
    match a with
    | ⟨0, _⟩ => show win3_1.index t (0 : Fin 2) * 2000 + 1 * p.val = t.val * 2000 + p.val; omega
    | ⟨1, _⟩ => show win3_1.index t (1 : Fin 2) * 1 + 1 * 0 = 0; omega
  have h2 : iblk3 V c 2 t (ix2 (0 : Fin 1) q) = V c main_v39 (ix2 (0 : Fin 1) q) := by
    show V c main_v39 (((cfg3.win 2).blk t).view.emb (ix2 (0 : Fin 1) q)) = _
    refine congrArg _ ?_
    funext a; apply Fin.ext
    match a with
    | ⟨0, _⟩ => show win3_2.index t (0 : Fin 2) * 1 + 1 * 0 = 0; omega
    | ⟨1, _⟩ => show win3_2.index t (1 : Fin 2) * 40 + 1 * q.val = q.val; omega
  have h3 : ((cfg3.win 3).blk t).view.emb (ix2 p q) = ix2 (Spec.row t.val ht p) q := by
    funext a; apply Fin.ext
    match a with
    | ⟨0, _⟩ => show win3_3.index t (0 : Fin 2) * 2000 + 1 * p.val = t.val * 2000 + p.val; omega
    | ⟨1, _⟩ => show win3_3.index t (1 : Fin 2) * 40 + 1 * q.val = q.val; omega
  show _ = Spec.affine (V c main_v38) (V c main_v14) (V c main_v39) (((cfg3.win 3).blk t).view.emb (ix2 p q))
  rw [h3, h2, h1, h0]
  rfl

/-- An index of the result is in point t's block iff its row is among the block's 2000 rows. -/
theorem mem_blk (t : Fin cfg3.N) (i : S50000x40.Idx) :
    i ∈ ((cfg3.win 3).blk t).view.set ↔ ∀ a : Fin 2, win3_3.index t a * S2000x40.size a ≤ (i a).val
      ∧ (i a).val < win3_3.index t a * S2000x40.size a + S2000x40.size a := by
  show i ∈ ((View.whole main_v40).slice (win3_3.rect t)).set ↔ _
  rw [View.set_slice_whole, Rect.mem_set_unit]
  exact Iff.rfl

/-- Every index of the result is in the block of the point its row divided by 2000 names. -/
theorem cover (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  have hN : cfg3.N = 25 := N_3
  let t : Fin cfg3.N := ⟨(i 0).val / 2000, by rw [hN]; omega⟩
  obtain ⟨-, -, -, -, -, -, e30, e31, -⟩ := idx_facts t
  have tv : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 40 ≤ (i 1).val ∧ (i 1).val < win3_3.index t (1 : Fin 2) * 40 + 40; omega

/-- THE ARRAY the region leaves: the affine function of the arrays it finds. -/
theorem final (c : Dev nD) :
    (dat3 V c).arrAt 3 cfg3.N = Spec.affine (V c main_v38) (V c main_v14) (V c main_v39) :=
  (dat3 V c).arrAt_eq_of_cover 3 _ (fun t _ => flushed_eq V c t) cover

end Cert.KernelIdeal.Region3

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«174996_j73890617360513_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«174996_j73890617360513_1_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.RefLaws.lean ====
/-
  Host operations over whole arrays, read as the functions of Spec, over the extended reals and arbitrary extents.

  A column [M, 1] broadcast along the lanes reads at (r, q) the column's entry (r, 0); a row [1, N] broadcast over
  the rows reads at (r, q) the row's entry (0, q).  So the host's product times a broadcast column is matScale, a
  matrix times a broadcast column plus a broadcast row is affine, and its maximum with a broadcast zero is
  affineRelu.
-/
import proofs.«174996_j73890617360513_1_alg».proof.Proof.Spec
import proofs.«174996_j73890617360513_1_alg».proof.Proof.LibHostDotPlain
import proofs.«174996_j73890617360513_1_alg».proof.Proof.LibHostColRow
import Idealize.ShloMosaic.Lib.Pipeline.Value
import Idealize.ShloMosaic.Lib.ValueLayout
import Idealize.ShloMosaic.Lib.ValueIdx

noncomputable section

open scoped BigOperators

namespace Cert.RefLaws

open Idealize.ShloMosaic Idealize.ShloMosaic.ValueIdx Idealize.ShloMosaic.HostColRow

variable {M K N : Nat}

/-- The host's product with its rows scaled by a broadcast column is matScale. -/
theorem matScale_eq (a : FVec Ideal ⟨2, ![M, K]⟩ .f32) (w : FVec Ideal ⟨2, ![K, N]⟩ .f32)
    (n : FVec Ideal ⟨2, ![M, 1]⟩ .f32) (h : (⟨2, ![M, 1]⟩ : Shape).BroadcastsInDim ⟨2, ![M, N]⟩ ![0, 1]) :
    mulf (Host.dotGeneral (F := Ideal) (DotDims.plain M K N) none a w) (broadcastInDim ⟨2, ![M, N]⟩ ![0, 1] h n)
      = Spec.matScale a w n := by
  funext i
  rw [mulf_apply, HostDotPlain.dotGeneral_apply, bcast_col_apply]
  rfl

/-- A matrix with its rows scaled by a broadcast column, plus a broadcast row, is affine. -/
theorem affine_eq (a : FVec Ideal ⟨2, ![M, N]⟩ .f32) (n : FVec Ideal ⟨2, ![M, 1]⟩ .f32)
    (b : FVec Ideal ⟨2, ![1, N]⟩ .f32) (h1 : (⟨2, ![M, 1]⟩ : Shape).BroadcastsInDim ⟨2, ![M, N]⟩ ![0, 1])
    (h2 : (⟨2, ![1, N]⟩ : Shape).BroadcastsInDim ⟨2, ![M, N]⟩ ![0, 1]) :
    addf (mulf a (broadcastInDim ⟨2, ![M, N]⟩ ![0, 1] h1 n)) (broadcastInDim ⟨2, ![M, N]⟩ ![0, 1] h2 b)
      = Spec.affine a n b := by
  funext i
  rw [addf_apply, mulf_apply, bcast_col_apply, bcast_row_apply]
  rfl

/-- The maximum of that with a broadcast zero is affineRelu. -/
theorem affineRelu_eq (a : FVec Ideal ⟨2, ![M, N]⟩ .f32) (n : FVec Ideal ⟨2, ![M, 1]⟩ .f32)
    (b : FVec Ideal ⟨2, ![1, N]⟩ .f32) (h1 : (⟨2, ![M, 1]⟩ : Shape).BroadcastsInDim ⟨2, ![M, N]⟩ ![0, 1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (mulf a (broadcastInDim ⟨2, ![M, N]⟩ ![0, 1] h1 n)) (broadcastInDim ⟨2, ![M, N]⟩ ![0, 1] h2 b))
        (broadcastInDim ⟨2, ![M, N]⟩ ![] h0 (constant (F := Ideal) ⟨0, ![]⟩ .f32 0x00000000#32))
      = Spec.affineRelu a n b := by
  funext i
  rw [maximumf_apply, affine_eq,
    broadcastInDim_apply ![] h0 (constant (F := Ideal) ⟨0, ![]⟩ .f32 0x00000000#32) i ix0 (fun a => a.elim0)]
  rfl

end Cert.RefLaws

end
-- ==== Proof.KValue.lean ====
/-
  What the idealized kernel's buffers hold at each boundary of its program, named by the reference's stages.

  The program is seven segments: host operations, the first product region, host operations (a gather and a
  scatter-add of the messages), the first affine region, the second product region, host operations (gather and
  scatter-add again), the second affine region.  Walking through them, every buffer a later segment reads holds
  the reference's stage of the same name in the mathematics: the two degree-norm columns (a vector cast to a
  column holds what the vector broadcast into a column holds), the scaled product (matScale), the summed
  messages, the activated first layer (affineRelu), the second scaled product, the second sum, and the result
  (affine).  Gathers, scatter-adds and the index arithmetic are the same operations of equal operands on both
  sides, so they are never opened.
-/
import proofs.«174996_j73890617360513_1_alg».proof.Proof.Gen.KernelIdeal.Frame
import proofs.«174996_j73890617360513_1_alg».proof.Proof.Gen.ReferenceIdeal.Read
import proofs.«174996_j73890617360513_1_alg».proof.Proof.Region0
import proofs.«174996_j73890617360513_1_alg».proof.Proof.Region1
import proofs.«174996_j73890617360513_1_alg».proof.Proof.Region2
import proofs.«174996_j73890617360513_1_alg».proof.Proof.Region3
import proofs.«174996_j73890617360513_1_alg».proof.Proof.RefLaws
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## After the first host operations -/

theorem w1_arg0 : W1 m ρ c (Proc.devRef .tc main_arg0) = m ((c.tc : Thread nD τ).loc main_arg0) := by
  show StableHlo.after hostOps0 (W0 m ρ c) (Proc.devRef .tc main_arg0) = _
  after_results <;> rfl
theorem w1_arg1 : W1 m ρ c (Proc.devRef .tc main_arg1) = m ((c.tc : Thread nD τ).loc main_arg1) := by
  show StableHlo.after hostOps0 (W0 m ρ c) (Proc.devRef .tc main_arg1) = _
  after_results <;> rfl
theorem w1_arg2 : W1 m ρ c (Proc.devRef .tc main_arg2) = m ((c.tc : Thread nD τ).loc main_arg2) := by
  show StableHlo.after hostOps0 (W0 m ρ c) (Proc.devRef .tc main_arg2) = _
  after_results <;> rfl
theorem w1_arg3 : W1 m ρ c (Proc.devRef .tc main_arg3) = m ((c.tc : Thread nD τ).loc main_arg3) := by
  show StableHlo.after hostOps0 (W0 m ρ c) (Proc.devRef .tc main_arg3) = _
  after_results <;> rfl
theorem w1_arg4 : W1 m ρ c (Proc.devRef .tc main_arg4) = m ((c.tc : Thread nD τ).loc main_arg4) := by
  show StableHlo.after hostOps0 (W0 m ρ c) (Proc.devRef .tc main_arg4) = _
  after_results <;> rfl
theorem w1_arg5 : W1 m ρ c (Proc.devRef .tc main_arg5) = m ((c.tc : Thread nD τ).loc main_arg5) := by
  show StableHlo.after hostOps0 (W0 m ρ c) (Proc.devRef .tc main_arg5) = _
  after_results <;> rfl
theorem w1_arg6 : W1 m ρ c (Proc.devRef .tc main_arg6) = m ((c.tc : Thread nD τ).loc main_arg6) := by
  show StableHlo.after hostOps0 (W0 m ρ c) (Proc.devRef .tc main_arg6) = _
  after_results <;> rfl

/-- The source-side norm column: the degree vector cast to a column is the vector broadcast into the column. -/
theorem w1_v13 : W1 m ρ c (Proc.devRef .tc main_v13) = val_main_v14 (F := Ideal) (m ((c.tc : Thread nD τ).loc main_arg5)) := by
  show StableHlo.after hostOps0 (W0 m ρ c) (Proc.devRef .tc main_v13) = _
  after_results
  show shapeCast S50000x1 _ shapeCasts_S50000_S50000x1 = _
  refine (HostColRow.col_eq (M := 50000) _ shapeCasts_S50000_S50000x1 Cert.ReferenceIdeal.Facts₀.bcast_S50000_S50000x1_0).trans ?_
  rfl

/-- The destination-side norm column. -/
theorem w1_v14 : W1 m ρ c (Proc.devRef .tc main_v14) = val_main_v27 (F := Ideal) (m ((c.tc : Thread nD τ).loc main_arg6)) := by
  show StableHlo.after hostOps0 (W0 m ρ c) (Proc.devRef .tc main_v14) = _
  after_results
  show shapeCast S50000x1 _ shapeCasts_S50000_S50000x1 = _
  refine (HostColRow.col_eq (M := 50000) _ shapeCasts_S50000_S50000x1 Cert.ReferenceIdeal.Facts₀.bcast_S50000_S50000x1_0).trans ?_
  rfl

/-! ## After the first product region -/

theorem w2_arg2 : W2 m ρ c (Proc.devRef .tc main_arg2) = m ((c.tc : Thread nD τ).loc main_arg2) :=
  (W2_of_ne m ρ c main_arg2 (by decide)).trans (w1_arg2 m ρ c)
theorem w2_arg3 : W2 m ρ c (Proc.devRef .tc main_arg3) = m ((c.tc : Thread nD τ).loc main_arg3) :=
  (W2_of_ne m ρ c main_arg3 (by decide)).trans (w1_arg3 m ρ c)
theorem w2_arg4 : W2 m ρ c (Proc.devRef .tc main_arg4) = m ((c.tc : Thread nD τ).loc main_arg4) :=
  (W2_of_ne m ρ c main_arg4 (by decide)).trans (w1_arg4 m ρ c)
theorem w2_arg5 : W2 m ρ c (Proc.devRef .tc main_arg5) = m ((c.tc : Thread nD τ).loc main_arg5) :=
  (W2_of_ne m ρ c main_arg5 (by decide)).trans (w1_arg5 m ρ c)
theorem w2_arg6 : W2 m ρ c (Proc.devRef .tc main_arg6) = m ((c.tc : Thread nD τ).loc main_arg6) :=
  (W2_of_ne m ρ c main_arg6 (by decide)).trans (w1_arg6 m ρ c)
theorem w2_v14 : W2 m ρ c (Proc.devRef .tc main_v14) = val_main_v27 (F := Ideal) (m ((c.tc : Thread nD τ).loc main_arg6)) :=
  (W2_of_ne m ρ c main_v14 (by decide)).trans (w1_v14 m ρ c)
theorem w2_v13 : W2 m ρ c (Proc.devRef .tc main_v13) = val_main_v14 (F := Ideal) (m ((c.tc : Thread nD τ).loc main_arg5)) :=
  (W2_arr m ρ c 2).trans (((dat0 (V1 m ρ) c).arrAt_in 2 rfl _).trans ((A_eq0 (V1 m ρ) c 2).trans (w1_v13 m ρ c)))

/-- The first scaled product. -/
theorem w2_v15 : W2 m ρ c (Proc.devRef .tc main_v15) = val_main_v16 (F := Ideal) (m ((c.tc : Thread nD τ).loc main_arg0)) (m ((c.tc : Thread nD τ).loc main_arg1)) (m ((c.tc : Thread nD τ).loc main_arg5)) := by
  refine (W2_arr m ρ c 3).trans ((Region0.final (V1 m ρ) c).trans ?_)
  show Spec.matScale (W1 m ρ c (Proc.devRef .tc main_arg0)) (W1 m ρ c (Proc.devRef .tc main_arg1)) (W1 m ρ c (Proc.devRef .tc main_v13)) = _
  rw [w1_arg0, w1_arg1, w1_v13]
  exact (RefLaws.matScale_eq (M := 50000) (K := 512) (N := 128) _ _ _ Cert.ReferenceIdeal.Facts₀.bcast_S50000x1_S50000x128_0_1).symm

/-! ## After the first gather and scatter-add -/

theorem w3_arg3 : W3 m ρ c (Proc.devRef .tc main_arg3) = m ((c.tc : Thread nD τ).loc main_arg3) := by
  show StableHlo.after hostOps1 (W2 m ρ c) (Proc.devRef .tc main_arg3) = _
  after_results
  exact w2_arg3 m ρ c
theorem w3_arg4 : W3 m ρ c (Proc.devRef .tc main_arg4) = m ((c.tc : Thread nD τ).loc main_arg4) := by
  show StableHlo.after hostOps1 (W2 m ρ c) (Proc.devRef .tc main_arg4) = _
  after_results
  exact w2_arg4 m ρ c
theorem w3_arg5 : W3 m ρ c (Proc.devRef .tc main_arg5) = m ((c.tc : Thread nD τ).loc main_arg5) := by
  show StableHlo.after hostOps1 (W2 m ρ c) (Proc.devRef .tc main_arg5) = _
  after_results
  exact w2_arg5 m ρ c
theorem w3_arg6 : W3 m ρ c (Proc.devRef .tc main_arg6) = m ((c.tc : Thread nD τ).loc main_arg6) := by
  show StableHlo.after hostOps1 (W2 m ρ c) (Proc.devRef .tc main_arg6) = _
  after_results
  exact w2_arg6 m ρ c
theorem w3_v13 : W3 m ρ c (Proc.devRef .tc main_v13) = val_main_v14 (F := Ideal) (m ((c.tc : Thread nD τ).loc main_arg5)) := by
  show StableHlo.after hostOps1 (W2 m ρ c) (Proc.devRef .tc main_v13) = _
  after_results
  exact w2_v13 m ρ c
theorem w3_v14 : W3 m ρ c (Proc.devRef .tc main_v14) = val_main_v27 (F := Ideal) (m ((c.tc : Thread nD τ).loc main_arg6)) := by
  show StableHlo.after hostOps1 (W2 m ρ c) (Proc.devRef .tc main_v14) = _
  after_results
  exact w2_v14 m ρ c

/-- The first summed messages: the same gather and scatter-add of equal operands. -/
theorem w3_v25 : W3 m ρ c (Proc.devRef .tc main_v25)
    = val_main_v26 (F := Ideal) (m ((c.tc : Thread nD τ).loc main_arg0)) (m ((c.tc : Thread nD τ).loc main_arg1)) (m ((c.tc : Thread nD τ).loc main_arg5)) (m ((c.tc : Thread nD τ).loc main_arg6)) := by
  show StableHlo.after hostOps1 (W2 m ρ c) (Proc.devRef .tc main_v25) = _
  after_results
  rw [w2_v15, w2_arg5, w2_arg6]
  rfl

/-- The first bias as a row: the vector cast to a row is the vector broadcast into the row. -/
theorem w3_v26 : W3 m ρ c (Proc.devRef .tc main_v26) = val_main_v30 (F := Ideal) (m ((c.tc : Thread nD τ).loc main_arg2)) := by
  show StableHlo.after hostOps1 (W2 m ρ c) (Proc.devRef .tc main_v26) = _
  after_results
  rw [w2_arg2]
  show shapeCast S1x128 _ shapeCasts_S128_S1x128 = _
  exact HostColRow.row_eq (N := 128) _ shapeCasts_S128_S1x128 Cert.ReferenceIdeal.Facts₀.bcast_S128_S1x128_1

/-! ## After the first affine region -/

theorem w4_arg3 : W4 m ρ c (Proc.devRef .tc main_arg3) = m ((c.tc : Thread nD τ).loc main_arg3) :=
  (W4_of_ne m ρ c main_arg3 (by decide)).trans (w3_arg3 m ρ c)
theorem w4_arg4 : W4 m ρ c (Proc.devRef .tc main_arg4) = m ((c.tc : Thread nD τ).loc main_arg4) :=
  (W4_of_ne m ρ c main_arg4 (by decide)).trans (w3_arg4 m ρ c)
theorem w4_arg5 : W4 m ρ c (Proc.devRef .tc main_arg5) = m ((c.tc : Thread nD τ).loc main_arg5) :=
  (W4_of_ne m ρ c main_arg5 (by decide)).trans (w3_arg5 m ρ c)
theorem w4_arg6 : W4 m ρ c (Proc.devRef .tc main_arg6) = m ((c.tc : Thread nD τ).loc main_arg6) :=
  (W4_of_ne m ρ c main_arg6 (by decide)).trans (w3_arg6 m ρ c)
theorem w4_v13 : W4 m ρ c (Proc.devRef .tc main_v13) = val_main_v14 (F := Ideal) (m ((c.tc : Thread nD τ).loc main_arg5)) :=
  (W4_of_ne m ρ c main_v13 (by decide)).trans (w3_v13 m ρ c)
theorem w4_v14 : W4 m ρ c (Proc.devRef .tc main_v14) = val_main_v27 (F := Ideal) (m ((c.tc : Thread nD τ).loc main_arg6)) :=
  (W4_arr m ρ c 1).trans (((dat1 (V3 m ρ) c).arrAt_in 1 rfl _).trans ((A_eq1 (V3 m ρ) c 1).trans (w3_v14 m ρ c)))

/-- The activated first layer. -/
theorem w4_v27 : W4 m ρ c (Proc.devRef .tc main_v27)
    = val_main_v33 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (W4_arr m ρ c 3).trans ((Region1.final (V3 m ρ) c).trans ?_)
  show Spec.affineRelu (W3 m ρ c (Proc.devRef .tc main_v25)) (W3 m ρ c (Proc.devRef .tc main_v14)) (W3 m ρ c (Proc.devRef .tc main_v26)) = _
  rw [w3_v25, w3_v14, w3_v26]
  exact (RefLaws.affineRelu_eq (M := 50000) (N := 128) _ _ _ Cert.ReferenceIdeal.Facts₀.bcast_S50000x1_S50000x128_0_1
    Cert.ReferenceIdeal.Facts₀.bcast_S1x128_S50000x128_0_1 Cert.ReferenceIdeal.Facts₀.bcast_S_S50000x128).symm

/-! ## After the second product region -/

theorem w5_arg4 : W5 m ρ c (Proc.devRef .tc main_arg4) = m ((c.tc : Thread nD τ).loc main_arg4) :=
  (W5_of_ne m ρ c main_arg4 (by decide)).trans (w4_arg4 m ρ c)
theorem w5_arg5 : W5 m ρ c (Proc.devRef .tc main_arg5) = m ((c.tc : Thread nD τ).loc main_arg5) :=
  (W5_of_ne m ρ c main_arg5 (by decide)).trans (w4_arg5 m ρ c)
theorem w5_arg6 : W5 m ρ c (Proc.devRef .tc main_arg6) = m ((c.tc : Thread nD τ).loc main_arg6) :=
  (W5_of_ne m ρ c main_arg6 (by decide)).trans (w4_arg6 m ρ c)
theorem w5_v14 : W5 m ρ c (Proc.devRef .tc main_v14) = val_main_v27 (F := Ideal) (m ((c.tc : Thread nD τ).loc main_arg6)) :=
  (W5_of_ne m ρ c main_v14 (by decide)).trans (w4_v14 m ρ c)

/-- The second scaled product. -/
theorem w5_v28 : W5 m ρ c (Proc.devRef .tc main_v28)
    = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  refine (W5_arr m ρ c 3).trans ((Region2.final (V4 m ρ) c).trans ?_)
  show Spec.matScale (W4 m ρ c (Proc.devRef .tc main_v27)) (W4 m ρ c (Proc.devRef .tc main_arg3)) (W4 m ρ c (Proc.devRef .tc main_v13)) = _
  rw [w4_v27, w4_arg3, w4_v13]
  exact (RefLaws.matScale_eq (M := 50000) (K := 128) (N := 40) _ _ _ Cert.ReferenceIdeal.Facts₀.bcast_S50000x1_S50000x40_0_1).symm

/-! ## After the second gather and scatter-add -/

theorem w6_v14 : W6 m ρ c (Proc.devRef .tc main_v14) = val_main_v48 (F := Ideal) (m ((c.tc : Thread nD τ).loc main_arg6)) := by
  show StableHlo.after hostOps3 (W5 m ρ c) (Proc.devRef .tc main_v14) = _
  after_results
  exact w5_v14 m ρ c

set_option maxHeartbeats 4000000 in
/-- The second summed messages. -/
theorem w6_v38 : W6 m ρ c (Proc.devRef .tc main_v38)
    = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  show StableHlo.after hostOps3 (W5 m ρ c) (Proc.devRef .tc main_v38) = _
  after_results
  rw [w5_v28, w5_arg5, w5_arg6]
  rfl

/-- The second bias as a row. -/
theorem w6_v39 : W6 m ρ c (Proc.devRef .tc main_v39) = val_main_v51 (F := Ideal) (m ((c.tc : Thread nD τ).loc main_arg4)) := by
  show StableHlo.after hostOps3 (W5 m ρ c) (Proc.devRef .tc main_v39) = _
  after_results
  rw [w5_arg4]
  show shapeCast S1x40 _ shapeCasts_S40_S1x40 = _
  exact HostColRow.row_eq (N := 40) _ shapeCasts_S40_S1x40 Cert.ReferenceIdeal.Facts₀.bcast_S40_S1x40_1

/-! ## The result -/

/-- The result buffer at the end holds the reference's last stage of the arguments. -/
theorem w7_v40 : W7 m ρ c (Proc.devRef .tc main_v40)
    = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W7_arr m ρ c 3).trans ((Region3.final (V6 m ρ) c).trans ?_)
  show Spec.affine (W6 m ρ c (Proc.devRef .tc main_v38)) (W6 m ρ c (Proc.devRef .tc main_v14)) (W6 m ρ c (Proc.devRef .tc main_v39)) = _
  rw [w6_v38, w6_v14, w6_v39]
  exact (RefLaws.affine_eq (M := 50000) (N := 40) _ _ _ Cert.ReferenceIdeal.Facts₀.bcast_S50000x1_S50000x40_0_1
    Cert.ReferenceIdeal.Facts₀.bcast_S1x40_S50000x40_0_1).symm

end Cert.KernelIdeal.KValue

end
-- ==== Proof.lean ====
/-
  Two-layer graph convolution: the blocked kernel against the plain reference, over the extended reals.

  Both programs compute, from the features X, the weights W1, W2, the biases b1, b2 and the edge lists src, dst:
  the degree norms ns = rsqrt (max (out-degree) 1), nd = rsqrt (max (in-degree) 1); then per layer
  H = (X · W) scaled row by row by ns, the messages H[src] summed into their destination rows, that sum scaled row
  by row by nd plus the bias; the first layer's output goes through a maximum with zero.  The kernel computes the
  two products and the two scale-and-bias steps block by block (25 blocks of 2000 rows, the product on the matrix
  unit after a change of float format that is the identity here); the reference computes them on whole arrays.
  Row by row these are the same sums and products in the same order of operations, the gathers and scatter-adds
  are the same host operations of equal operands, so the two results are equal entry by entry with no law beyond
  reading each operation at an index: finiteness of the inputs is not used.

  The three frames: the two kernels' are the generated frame proofs; the reference's is its generated run with the
  result dropped.  The idealization rewrote nothing, so there is nothing to preserve.
-/
import proofs.«174996_j73890617360513_1_alg».proof.Defs
import proofs.«174996_j73890617360513_1_alg».proof.Proof.Gen.Kernel
import proofs.«174996_j73890617360513_1_alg».proof.Proof.Gen.Kernel.Skeleton
import proofs.«174996_j73890617360513_1_alg».proof.Proof.Gen.Kernel.Launch
import proofs.«174996_j73890617360513_1_alg».proof.Proof.Gen.Kernel.Points
import proofs.«174996_j73890617360513_1_alg».proof.Proof.Gen.Kernel.Frame
import proofs.«174996_j73890617360513_1_alg».proof.Proof.Gen.KernelIdeal
import proofs.«174996_j73890617360513_1_alg».proof.Proof.Gen.KernelIdeal.Skeleton
import proofs.«174996_j73890617360513_1_alg».proof.Proof.Gen.KernelIdeal.Launch
import proofs.«174996_j73890617360513_1_alg».proof.Proof.Gen.KernelIdeal.Points
import proofs.«174996_j73890617360513_1_alg».proof.Proof.Gen.KernelIdeal.Frame
import proofs.«174996_j73890617360513_1_alg».proof.Proof.Gen.ReferenceIdeal
import proofs.«174996_j73890617360513_1_alg».proof.Proof.Gen.ReferenceIdeal.Run
import proofs.«174996_j73890617360513_1_alg».proof.Proof.Gen.ReferenceIdeal.Read
import proofs.«174996_j73890617360513_1_alg».proof.Proof.Gen.Pre_finite_inputs
import proofs.«174996_j73890617360513_1_alg».proof.Proof.KRun
import proofs.«174996_j73890617360513_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.w7_v40 m ρ c), (h c).2⟩) (Cert.KernelIdeal.KRun.run m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6⟩ := hagree c
    rw [(h c).1, Cert.ReferenceIdeal.Read.val_main_v53_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
